-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 24
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x128, .f32⟩
  | .hbm, ⟨23, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One layer of a graph convolution on 50000 nodes with 128 features each, as a function of its arrays.
  Given the neighbour sums `s` (row `r` is the sum of the feature rows of node `r`'s neighbours), the node
  features `x`, the two 128 × 128 weight matrices `wn` (for the neighbour sums) and `ws` (for the node itself)
  and the bias `b`, node `r`'s new feature `c` is

      (∑ₖ x[r, k] · ws[k, c]) + tanh ((∑ₖ s[r, k] · wn[k, c]) + b[c])

  on the extended reals: two matrix products, a bias added along the rows, a hyperbolic tangent, a sum.
  Entry `(r, c)` depends on row `r` of `s` and of `x`, on column `c` of both weight matrices and on `b[c]`
  only, which is why the rows may be cut into blocks and each block computed by itself.
-/
import Idealize.ShloMosaic.PureOps.Ideal
import Idealize.ShloMosaic.Lib.ValueIdx

noncomputable section

namespace Cert.GraphLayer

open Idealize.ShloMosaic Idealize.ShloMosaic.ValueIdx

/-- The node arrays: 50000 rows of 128 features. -/
abbrev Nodes : Shape := ⟨2, ![50000, 128]⟩
/-- A weight matrix: 128 input features by 128 output features. -/
abbrev Weights : Shape := ⟨2, ![128, 128]⟩
/-- The bias: one number per output feature. -/
abbrev Bias : Shape := ⟨1, ![128]⟩

/-- Node `r`'s new feature `c`: the node's own row through `ws`, plus the hyperbolic tangent of its
    neighbour sum's row through `wn` with the bias added. -/
def layerAt (s x : FVec Ideal Nodes .f32) (wn ws : FVec Ideal Weights .f32) (b : FVec Ideal Bias .f32)
    (r : Fin 50000) (c : Fin 128) : EReal :=
  (∑ k : Fin 128, x (ix2 r k) * ws (ix2 k c))
    + Ideal.tanh ((∑ k : Fin 128, s (ix2 r k) * wn (ix2 k c)) + b (ix1 c))

/-- The layer's whole result array, index by index. -/
def layer (s x : FVec Ideal Nodes .f32) (wn ws : FVec Ideal Weights .f32) (b : FVec Ideal Bias .f32) :
    FVec Ideal Nodes .f32 :=
  fun i => layerAt s x wn ws b (i 0) (i 1)

/-- The result array at row `r`, column `c`. -/
theorem layer_ix2 (s x : FVec Ideal Nodes .f32) (wn ws : FVec Ideal Weights .f32) (b : FVec Ideal Bias .f32)
    (r : Fin 50000) (c : Fin 128) : layer s x wn ws b (ix2 r c) = layerAt s x wn ws b r c := rfl

end Cert.GraphLayer

end
-- ==== Proof.BlockValue.lean ====
/-
  What the kernel's body stores for one block of 5000 rows, read at an entry of the block.
  The body is given a block `x0` of neighbour sums and the matching block `x1` of node features (5000 rows each),
  the two weight matrices `x2`, `x3` whole and the bias `x4` as one row. It rounds the four matrices to a narrower
  format, which on the extended reals changes nothing; multiplies the blocks by the weights, each product
  accumulated from zero and therefore the plain sum over the 128 contracted features; repeats the bias row
  down the block; and stores  x1·x3 + tanh (x0·x2 + bias).  At row `p`, column `q` of the block that is the
  layer's formula (Layer.lean) on row `p` of the two blocks.
-/
import proofs.«141894_j9457517986513_2_alg».proof.Proof.Gen.KernelIdeal.Skeleton
import proofs.«141894_j9457517986513_2_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.GraphLayer.Block

open Cert.KernelIdeal Idealize.ShloMosaic Idealize.ShloMosaic.ValueIdx Cert.GraphLayer

/-- The record of the block product's axes: rows by contracted features times contracted features by columns. -/
abbrev blockDot : DotDims S5000x128 S128x128 S5000x128 := dot_S5000x128_S128x128_S5000x128_1_0_0_1_n_n

/-- The left operand of the block product at output `j` and contracted index `κ` sits in `j`'s row … -/
theorem left_row (j : S5000x128.Idx) (κ : blockDot.contr.Idx) : (blockDot.lhsIdx j κ 0).val = (j 0).val := by
  unfold DotDims.lhsIdx
  rw [dif_neg (show ¬(0 : Fin S5000x128.rank) ∈ blockDot.lhsBatch by decide),
    dif_pos (show (0 : Fin S5000x128.rank) ∈ blockDot.lhsNonContracting by decide)]
  rfl
/-- … at the contracted index; -/
theorem left_col (j : S5000x128.Idx) (κ : blockDot.contr.Idx) : (blockDot.lhsIdx j κ 1).val = (κ ⟨0, by decide⟩).val :=
  blockDot.lhsIdx_val_of_single rfl j κ
/-- the right operand sits in the row of the contracted index … -/
theorem right_row (j : S5000x128.Idx) (κ : blockDot.contr.Idx) : (blockDot.rhsIdx j κ 0).val = (κ ⟨0, by decide⟩).val :=
  blockDot.rhsIdx_val_of_single rfl j κ
/-- … in `j`'s column. -/
theorem right_col (j : S5000x128.Idx) (κ : blockDot.contr.Idx) : (blockDot.rhsIdx j κ 1).val = (j 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- A block of 5000 rows times a weight matrix, accumulated from zero, at row `p` and column `q`: the sum over
    the 128 contracted features of the row's entry times the column's entry. -/
theorem product_at (a : FVec Ideal S5000x128 .bf16) (w : FVec Ideal S128x128 .bf16) (p : Fin 5000) (q : Fin 128) :
    matmul blockDot none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 blockDot 128 rfl rfl).symm]
  refine Finset.sum_congr rfl fun k _ => ?_
  have hk := ValueIdx.contrEquiv1_symm_val blockDot 128 rfl rfl k
  have el : blockDot.lhsIdx (ix2 p q) ((ValueIdx.contrEquiv1 blockDot 128 rfl rfl).symm k) = ix2 p k :=
    funext fun ax => Fin.ext (by
      match ax with
      | ⟨0, _⟩ => exact left_row _ _
      | ⟨1, _⟩ => exact (left_col _ _).trans hk)
  have er : blockDot.rhsIdx (ix2 p q) ((ValueIdx.contrEquiv1 blockDot 128 rfl rfl).symm k) = ix2 k q :=
    funext fun ax => Fin.ext (by
      match ax with
      | ⟨0, _⟩ => exact (right_row _ _).trans hk
      | ⟨1, _⟩ => exact right_col _ _)
  rw [el, er]

/-- The same product of operands first rounded to the narrower format: on the extended reals the rounding is
    the identity, so the entries are those of the unrounded operands. -/
theorem rounded_product_at (a : FVec Ideal S5000x128 .f32) (w : FVec Ideal S128x128 .f32) (p : Fin 5000) (q : Fin 128) :
    matmul blockDot none (truncf .bf16 a Facts₀.bitsLt_bf16_f32) (truncf .bf16 w Facts₀.bitsLt_bf16_f32)
        (constant (F := Ideal) S5000x128 .f32 0x00000000#32) (ix2 p q)
      = ∑ k : Fin 128, a (ix2 p k) * w (ix2 k q) :=
  product_at _ _ p q

/-- What the body stores, at row `p` and column `q` of its block. -/
theorem payload_at (x0 x1 : Vec Ideal S5000x128 .f32) (x2 x3 : Vec Ideal S128x128 .f32) (x4 : Vec Ideal S1x128 .f32)
    (p : Fin 5000) (q : Fin 128) :
    Gen.k0_pay1 x0 x1 x2 x3 x4 (ix2 p q)
      = (∑ k : Fin 128, x1 (ix2 p k) * x3 (ix2 k q))
        + Ideal.tanh ((∑ k : Fin 128, x0 (ix2 p k) * x2 (ix2 k q)) + x4 (ix2 (0 : Fin 1) q)) := by
  unfold Gen.k0_pay1
  refine congrArg₂ (· + ·) (rounded_product_at x1 x3 p q) (congrArg Ideal.tanh (congrArg₂ (· + ·) ?_ ?_))
  · exact (rounded_product_at (shapeCast S5000x128 x0 Facts₀.shapeCasts_S5000x128_S5000x128) x2 p q).trans
      (by rw [shapeCast_self])
  · exact (broadcastTo_1b_ab_apply _ Facts₀.broadcasts_S1x128_S5000x128 p q).trans
      (congrFun (shapeCast_self x4 Facts₀.shapeCasts_S1x128_S1x128) _)

/-- One entry of a block is the layer's entry of the whole arrays, whenever the blocks the body is given are
    the arrays' rows from `r0` on, the weights are the weight matrices, and the bias row is the bias. -/
theorem block_entry (s x : FVec Ideal Nodes .f32) (wn ws : FVec Ideal Weights .f32) (b : FVec Ideal Bias .f32)
    (x0 x1 : Vec Ideal S5000x128 .f32) (x2 x3 : Vec Ideal S128x128 .f32) (x4 : Vec Ideal S1x128 .f32)
    (p : Fin 5000) (q : Fin 128) (r : Fin 50000)
    (h0 : ∀ k : Fin 128, x0 (ix2 p k) = s (ix2 r k)) (h1 : ∀ k : Fin 128, x1 (ix2 p k) = x (ix2 r k))
    (h2 : ∀ k : Fin 128, x2 (ix2 k q) = wn (ix2 k q)) (h3 : ∀ k : Fin 128, x3 (ix2 k q) = ws (ix2 k q))
    (h4 : x4 (ix2 (0 : Fin 1) q) = b (ix1 q)) :
    Gen.k0_pay1 x0 x1 x2 x3 x4 (ix2 p q) = layerAt s x wn ws b r q := by
  rw [payload_at]
  unfold layerAt
  simp only [h0, h1, h2, h3, h4]

end Cert.GraphLayer.Block

end
-- ==== Proof.KernelLayer.lean ====
/-
  The kernel's result array is the layer (Layer.lean) of the arrays its windows read.
  The grid has ten points; point `t` is given rows 5000·t … 5000·t + 4999 of the neighbour sums and of the node
  features, both weight matrices whole and the bias as one row, and writes back rows 5000·t … 5000·t + 4999 of
  the result. By BlockValue.lean entry `(p, q)` of what it writes is the layer's entry `(5000·t + p, q)`, because
  that entry needs only row 5000·t + p of the two node arrays. The ten blocks tile the 50000 rows — row `r` lies in
  the block of point `r / 5000` — so the whole array ends holding the layer.
-/
import proofs.«141894_j9457517986513_2_alg».proof.Proof.Gen.KernelIdeal.Value
import proofs.«141894_j9457517986513_2_alg».proof.Proof.BlockValue
import Idealize.ShloMosaic.Lib.Pipeline.Value
import Idealize.ShloMosaic.Lib.StableHlo.Run
import Idealize.ShloMosaic.Lib.ValueLayout

noncomputable section

namespace Cert.GraphLayer.Kernel

open Cert.KernelIdeal Cert.KernelIdeal.Gen Idealize.ShloMosaic Idealize.ShloMosaic.TcCoe Idealize.SL.Sem
  Idealize.ShloMosaic.StableHlo Idealize.ShloMosaic.ValueIdx Cert.GraphLayer
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Which block each window holds at point `t`: the two node arrays' and the result's block `t` of rows, the
    weights' and the bias row's only block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The bias row the fifth window reads is the bias argument laid out as one row. -/
theorem bias_row (c : Dev nD) :
    (V m c (Pipeline.arrRef spec0 4) : S1x128.Idx → EReal)
      = shapeCast S1x128 (m ((c : Thread nD τ).loc main_arg4)) Facts₀.shapeCasts_S128_S1x128 := by
  show (V m c main_v14 : S1x128.Idx → EReal) = _
  dsimp only [Gen.V, Gen.hostOps0]
  after_results
  rfl

/-- An input window's block at point `t`, read at an entry, is the window's array read where the block's
    rectangle puts that entry. -/
theorem iblk0_apply (c : Dev nD) (t : Fin cfg0.N) (y : S5000x128.Idx) :
    iblk m c 0 t y = V m c (Pipeline.arrRef spec0 0) (((cfg0.win 0).blk t).view.emb y) := by
  unfold iblk; rw [View.read_apply]; exact cast_eq _ _
theorem iblk1_apply (c : Dev nD) (t : Fin cfg0.N) (y : S5000x128.Idx) :
    iblk m c 1 t y = V m c (Pipeline.arrRef spec0 1) (((cfg0.win 1).blk t).view.emb y) := by
  unfold iblk; rw [View.read_apply]; exact cast_eq _ _
theorem iblk2_apply (c : Dev nD) (t : Fin cfg0.N) (y : S128x128.Idx) :
    iblk m c 2 t y = V m c (Pipeline.arrRef spec0 2) (((cfg0.win 2).blk t).view.emb y) := by
  unfold iblk; rw [View.read_apply]; exact cast_eq _ _
theorem iblk3_apply (c : Dev nD) (t : Fin cfg0.N) (y : S128x128.Idx) :
    iblk m c 3 t y = V m c (Pipeline.arrRef spec0 3) (((cfg0.win 3).blk t).view.emb y) := by
  unfold iblk; rw [View.read_apply]; exact cast_eq _ _
theorem iblk4_apply (c : Dev nD) (t : Fin cfg0.N) (y : S1x128.Idx) :
    iblk m c 4 t y = V m c (Pipeline.arrRef spec0 4) (((cfg0.win 4).blk t).view.emb y) := by
  unfold iblk; rw [View.read_apply]; exact cast_eq _ _

/-- What point `t` writes back is block `t` of the layer of the arrays as the kernel finds them. -/
theorem flushed_eq (c : Dev nD) (t : Fin cfg0.N) :
    (dats m 0 c).flushed 5 t = ((cfg0.win 5).blk t).view.read (Elt Ideal)
      (layer (V m c (Pipeline.arrRef spec0 0)) (V m c (Pipeline.arrRef spec0 1)) (V m c (Pipeline.arrRef spec0 2))
        (V m c (Pipeline.arrRef spec0 3)) (m ((c : Thread nD τ).loc main_arg4))) := by
  rw [Value.flushed5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := block_indices t
  have hN : cfg0.N = 10 := N_0
  have ht : t.val < cfg0.N := t.isLt
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  show k0_pay1 (iblk m c 0 t) (iblk m c 1 t) (iblk m c 2 t) (iblk m c 3 t) (iblk m c 4 t) (ix2 p q)
      = layer _ _ _ _ _ (((cfg0.win 5).blk t).view.emb (ix2 p q))
  have hemb : ((cfg0.win 5).blk t).view.emb (ix2 p q) = (ix2 (⟨t.val * 5000 + p.val, hr⟩ : Fin 50000) q : S50000x128.Idx) := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [hemb, layer_ix2]
  refine Block.block_entry (V m c (Pipeline.arrRef spec0 0)) (V m c (Pipeline.arrRef spec0 1)) (V m c (Pipeline.arrRef spec0 2))
    (V m c (Pipeline.arrRef spec0 3)) (m ((c : Thread nD τ).loc main_arg4))
    (iblk m c 0 t) (iblk m c 1 t) (iblk m c 2 t) (iblk m c 3 t) (iblk m c 4 t)
    p q ⟨t.val * 5000 + p.val, hr⟩ ?_ ?_ ?_ ?_ ?_
  · intro k
    rw [iblk0_apply]
    generalize V m c (Pipeline.arrRef spec0 0) = A
    refine congrArg A ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    rw [iblk1_apply]
    generalize V m c (Pipeline.arrRef spec0 1) = A
    refine congrArg A ?_
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  · intro k
    rw [iblk2_apply]
    generalize V m c (Pipeline.arrRef spec0 2) = A
    refine congrArg A ?_
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  · intro k
    rw [iblk3_apply]
    generalize V m c (Pipeline.arrRef spec0 3) = A
    refine congrArg A ?_
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  · rw [iblk4_apply]
    have hb : ((cfg0.win 4).blk t).view.emb (ix2 (0 : Fin 1) q) = (ix2 (0 : Fin 1) q : S1x128.Idx) := by
      funext a; apply Fin.ext
      match a with
      | ⟨0, _⟩ => show win0_4.index t (0 : Fin 2) * 1 + 1 * 0 = 0; omega
      | ⟨1, _⟩ => show win0_4.index t (1 : Fin 2) * 128 + 1 * q.val = q.val; omega
    rw [hb]
    exact (congrFun (bias_row m c) _).trans (shapeCast_a_1a_apply _ _ 0 q)

/-- An index of the result array is in point `t`'s block iff its row lies in the block's 5000 rows. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v15).slice (win0_5.rect t)).set ↔ _
  rw [View.set_slice_whole, Rect.mem_set_unit]
  exact Iff.rfl

/-- The ten blocks tile the array: row `r` lies in the block of point `r / 5000`. -/
theorem cover (i : S50000x128.Idx) :
    ∃ t : Fin cfg0.N, (cfg0.win 5).flush t = true ∧ i ∈ ((cfg0.win 5).blk t).view.set := by
  have hN : cfg0.N = 10 := N_0
  have hi0 : (i 0).val < 50000 := idx2_lt0 i
  have hi1 : (i 1).val < 128 := idx2_lt1 i
  have hlt : (i 0).val / 5000 < cfg0.N := by rw [hN]; omega
  obtain ⟨-, -, -, -, -, -, -, -, -, -, e50, e51⟩ := block_indices ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e51]
    omega

/-- The result array after the run is the layer of the arrays as the kernel finds them. -/
theorem final (c : Dev nD) :
    (dats m 0 c).arrAt 5 cfg0.N
      = layer (V m c (Pipeline.arrRef spec0 0)) (V m c (Pipeline.arrRef spec0 1)) (V m c (Pipeline.arrRef spec0 2))
          (V m c (Pipeline.arrRef spec0 3)) (m ((c : Thread nD τ).loc main_arg4)) :=
  (dats m 0 c).arrAt_eq_of_cover 5 _ (fun t _ => flushed_eq m c t) (fun i => cover i)

/-- The kernel's run, read: the result array ends at the layer of the neighbour sums found at the launch and of
    the four arguments the windows read, and every argument array is unchanged. -/
theorem run : θ_run defs (onTc (τ := τ) (main (F := Ideal))) ⟨m, fun _ => 0, ρ⟩ fun r => ∀ c : Dev nD,
      r.2.mem ((c : Thread nD τ).loc main_v15)
        = layer (V m c main_v13) (m ((c : Thread nD τ).loc main_arg0)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      show layer (V m c main_v13) (V m c main_arg0) (V m c main_arg2) (V m c main_arg3) _ = _
      rw [V_main_arg0, V_main_arg2, V_main_arg3])), (h c).2⟩)
    (Value.run_blocks m ρ)

end Cert.GraphLayer.Kernel

end
-- ==== Proof.ReferenceLayer.lean ====
/-
  The host program's result is the layer (Layer.lean) of its own neighbour sums.
  Its last seven operations — a product of the neighbour sums with one weight matrix, the bias laid out as a row
  and repeated down the 50000 rows, their sum, the hyperbolic tangent, a product of the node features with the other
  weight matrix, and the final sum — read at row `r`, column `c` are exactly

      (∑ₖ x[r, k] · ws[k, c]) + tanh ((∑ₖ s[r, k] · wn[k, c]) + b[c]),

  each matrix product being, on the extended reals, the plain sum over the contracted index. Nothing is rearranged:
  the two sides are the same expression once every operation is read at the index.
-/
import proofs.«141894_j9457517986513_2_alg».proof.Proof.Gen.ReferenceIdeal.Read
import proofs.«141894_j9457517986513_2_alg».proof.Proof.Layer

noncomputable section

namespace Cert.GraphLayer.Reference

open Cert.ReferenceIdeal Cert.ReferenceIdeal.Read Idealize.ShloMosaic Idealize.ShloMosaic.ValueIdx Cert.GraphLayer

/-- The operands of the product with the node's own weights at output `(r, c)` and contracted index `k`:
    row `r` of the left operand at `k`, column `c` of the right operand at `k`. -/
theorem own_left (r : Fin 50000) (c k : Fin 128) : lidx_main_v19 (ix2 r c) k = ix2 r k :=
  funext fun a => Fin.ext (by match a with | ⟨0, _⟩ => rfl | ⟨1, _⟩ => rfl)
theorem own_right (r : Fin 50000) (c k : Fin 128) : ridx_main_v19 (ix2 r c) k = ix2 k c :=
  funext fun a => Fin.ext (by match a with | ⟨0, _⟩ => rfl | ⟨1, _⟩ => rfl)
/-- The same for the product with the neighbours' weights. -/
theorem nbr_left (r : Fin 50000) (c k : Fin 128) : lidx_main_v14 (ix2 r c) k = ix2 r k :=
  funext fun a => Fin.ext (by match a with | ⟨0, _⟩ => rfl | ⟨1, _⟩ => rfl)
theorem nbr_right (r : Fin 50000) (c k : Fin 128) : ridx_main_v14 (ix2 r c) k = ix2 k c :=
  funext fun a => Fin.ext (by match a with | ⟨0, _⟩ => rfl | ⟨1, _⟩ => rfl)
/-- The bias repeated down the rows reads, at `(r, c)`, the bias at `c`. -/
theorem bias_at (r : Fin 50000) (c : Fin 128) : idx_main_v15 (idx_main_v16 (ix2 r c)) = ix1 c :=
  funext fun a => Fin.ext (by match a with | ⟨0, _⟩ => rfl)

/-- The host program's result, as a function of its five arguments, is the layer of the neighbour sums it
    computes from the node features and the edge list. -/
theorem result_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v20 (F := Ideal) x0 x1 x2 x3 x4 = layer (val_main_v13 (F := Ideal) x0 x1) x0 x2 x3 x4 := by
  funext i
  obtain ⟨r, c, rfl⟩ : ∃ (r : Fin 50000) (c : Fin 128), i = ix2 r c := ⟨i 0, i 1, eq_ix2 i⟩
  rw [val_main_v20_apply, val_main_v19_apply, val_main_v18_apply, val_main_v17_apply, val_main_v14_apply,
    val_main_v16_apply, val_main_v15_apply, layer_ix2]
  simp only [own_left, own_right, nbr_left, nbr_right, bias_at, Ideal.addf_def, Ideal.hostUnary_tanh_def]
  rfl

end Cert.GraphLayer.Reference

end
-- ==== Proof.NeighbourSums.lean ====
/-
  The neighbour sums the kernel is given are the ones the host program computes.
  Both programs prepare them with the same host operations, from the same two arguments: the edge list's second
  row names, for every edge, the node whose feature row is gathered (a negative number counted from the end); the
  first row names the node onto whose row that feature row is added, starting from zeros. The array the kernel's
  first window reads is the result of these operations, and so is the array the host program multiplies by its
  weights: one term, which is never opened here.
-/
import proofs.«141894_j9457517986513_2_alg».proof.Proof.Gen.KernelIdeal.Frame
import proofs.«141894_j9457517986513_2_alg».proof.Proof.Gen.ReferenceIdeal.Read
import Idealize.ShloMosaic.Lib.StableHlo.Run

noncomputable section

namespace Cert.GraphLayer.NeighbourSums

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- When the kernel is launched its first window's array holds the host program's neighbour sums of the node
    features and the edge list. -/
theorem entry_eq (c : Dev nD) :
    (V m c main_v13 : S50000x128.Idx → EReal)
      = Cert.ReferenceIdeal.Read.val_main_v13 (F := Ideal) (m ((c : Thread nD τ).loc main_arg0)) (m ((c : Thread nD τ).loc main_arg1)) := by
  dsimp only [Gen.V, Gen.hostOps0]
  after_results
  rfl

end Cert.GraphLayer.NeighbourSums

end
-- ==== Proof.lean ====
/- The proof of `Cert.Claim` (proofs.«141894_j9457517986513_2_alg».proof.Defs): a graph-convolution layer computed by a
   blocked kernel against the same layer computed whole on the host.
   Both programs first form the neighbour sums with the same host operations (a gather of feature rows along the
   edges and their sum per node); the kernel then computes, for ten blocks of 5000 nodes,
   `x·ws + tanh (s·wn + b)` on the block's rows, and the host program computes the same expression on all 50000
   rows at once. On the extended reals rounding the operands of a product to a narrower format is the identity and
   a product accumulated from zero is the plain sum over the contracted index, so entry `(r, c)` of either result is
   `(∑ₖ x[r,k]·ws[k,c]) + tanh ((∑ₖ s[r,k]·wn[k,c]) + b[c])` (Proof/Layer.lean). Nothing is reordered, no sum is
   split, and no law that fails at the infinities is used: the precondition is never opened.
   Proof/BlockValue.lean reads one entry of a block; Proof/KernelLayer.lean puts the ten blocks together;
   Proof/ReferenceLayer.lean reads the host program's last operations at an index; Proof/NeighbourSums.lean
   identifies the two programs' neighbour sums. The three frames are the generated runs; the idealization rewrote
   nothing, so `preserves` is trivial. -/
import proofs.«141894_j9457517986513_2_alg».proof.Defs
import proofs.«141894_j9457517986513_2_alg».proof.Proof.Gen.Kernel
import proofs.«141894_j9457517986513_2_alg».proof.Proof.Gen.Kernel.Frame
import proofs.«141894_j9457517986513_2_alg».proof.Proof.Gen.KernelIdeal
import proofs.«141894_j9457517986513_2_alg».proof.Proof.Gen.KernelIdeal.Frame
import proofs.«141894_j9457517986513_2_alg».proof.Proof.Gen.KernelIdeal.Value
import proofs.«141894_j9457517986513_2_alg».proof.Proof.Gen.ReferenceIdeal
import proofs.«141894_j9457517986513_2_alg».proof.Proof.Gen.ReferenceIdeal.Run
import proofs.«141894_j9457517986513_2_alg».proof.Proof.Gen.ReferenceIdeal.Read
import proofs.«141894_j9457517986513_2_alg».proof.Proof.Gen.Pre_finite_inputs
import proofs.«141894_j9457517986513_2_alg».proof.Proof.KernelLayer
import proofs.«141894_j9457517986513_2_alg».proof.Proof.ReferenceLayer
import proofs.«141894_j9457517986513_2_alg».proof.Proof.NeighbourSums
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The host program runs and leaves its arguments alone: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the layer of the host operations'
    neighbour sums, the node features, the two weight matrices and the bias: the kernel block by block
    (`GraphLayer.Kernel.run`, its neighbour sums being the host's by `NeighbourSums.entry_eq`), the host
    program in one piece (`GraphLayer.Reference.result_eq`). -/
theorem algebraic : Cert.algebraic_KernelIdeal_ReferenceIdeal := by
  intro m ρ m' ρ' _ hagree
  refine ⟨fun c => Cert.GraphLayer.layer
      (Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.GraphLayer.Kernel.run m ρ)
    rw [Cert.GraphLayer.NeighbourSums.entry_eq]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.GraphLayer.Reference.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
